-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S16384x128 : Shape := ⟨2, ![16384, 128]⟩
abbrev S16384 : Shape := ⟨1, ![16384]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2x2048x4096 .f32) (main_arg1 : IVec S16384x4096 32) (main_arg2 : FVec F S16384x128 .f32) (main_arg3 : FVec F S16384 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384x128 .f32 := Host.absf main_arg2
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2x2048x4096 : Shape := ⟨3, ![2, 2048, 4096]⟩
abbrev S16384x4096 : Shape := ⟨2, ![16384, 4096]⟩
abbrev S16384x128 : Shape := ⟨2, ![16384, 128]⟩
abbrev S16384 : Shape := ⟨1, ![16384]⟩
abbrev S4096x4096 : Shape := ⟨2, ![4096, 4096]⟩
abbrev S1x16384 : Shape := ⟨2, ![1, 16384]⟩
abbrev S4096x16384 : Shape := ⟨2, ![4096, 16384]⟩
abbrev S512x4096 : Shape := ⟨2, ![512, 4096]⟩
abbrev S512x128 : Shape := ⟨2, ![512, 128]⟩
abbrev S1x512 : Shape := ⟨2, ![1, 512]⟩
abbrev S512x512 : Shape := ⟨2, ![512, 512]⟩
abbrev S512x16 : Shape := ⟨2, ![512, 16]⟩
abbrev S512x16x32 : Shape := ⟨3, ![512, 16, 32]⟩
abbrev S512x16x1 : Shape := ⟨3, ![512, 16, 1]⟩
abbrev S2x2048x16384 : Shape := ⟨3, ![2, 2048, 16384]⟩

abbrev nBuf : Space → Nat
  | .hbm => 9
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384x128, .f32⟩
  | .hbm, ⟨3, _⟩ => ⟨S16384, .f32⟩
  | .hbm, ⟨4, _⟩ => ⟨S4096x4096, .f32⟩
  | .hbm, ⟨5, _⟩ => ⟨S4096x4096, .bf16⟩
  | .hbm, ⟨6, _⟩ => ⟨S1x16384, .f32⟩
  | .hbm, ⟨7, _⟩ => ⟨S4096x16384, .f32⟩
  | .hbm, ⟨8, _⟩ => ⟨S2x2048x16384, .f32⟩
  | .local _ .vmem, ⟨0, _⟩ => ⟨S512x4096, .bf16⟩
  | .local _ .vmem, ⟨1, _⟩ => ⟨S512x4096, .bf16⟩
  | .local _ .vmem, ⟨2, _⟩ => ⟨S512x4096, .i32⟩
  | .local _ .vmem, ⟨3, _⟩ => ⟨S512x4096, .i32⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x4096, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x2048x4096_S4096x4096 : S2x2048x4096.ShapeCasts S4096x4096
  bitsLt_bf16_f32 : FTy.bits .bf16 < FTy.bits .f32
  shapeCasts_S16384_S1x16384 : S16384.ShapeCasts S1x16384
  inb_S512x4096_S512x512_0_0 : ∀ a, (![0, 0] : Fin 2 → Nat) a + S512x512.size a ≤ S512x4096.size a
  h_S512x512 : 0 < S512x512.numel
  inb_S512x128_S512x16_0_0 : ∀ a, (![0, 0] : Fin 2 → Nat) a + S512x16.size a ≤ S512x128.size a
  h_S512x16 : 0 < S512x16.numel
  shapeCasts_S512x512_S512x16x32 : S512x512.ShapeCasts S512x16x32
  shapeCasts_S512x16_S512x16x1 : S512x16.ShapeCasts S512x16x1
  shapeCasts_S512x16x1_S512x16x1 : S512x16x1.ShapeCasts S512x16x1
  broadcasts_S512x16x1_S512x16x32 : S512x16x1.Broadcasts S512x16x32
  shapeCasts_S512x16x32_S512x512 : S512x16x32.ShapeCasts S512x512
  shapeCasts_S512x512_S512x512 : S512x512.ShapeCasts S512x512
  packedbf16_S512x4096_S512x512_0_0 : (Rect.unit (s := S512x4096) ![0, 0] S512x512.size inb_S512x4096_S512x512_0_0).PackedRows (EltTy.packing .bf16)
  inb_S512x4096_S512x512_0_512 : ∀ a, (![0, 512] : Fin 2 → Nat) a + S512x512.size a ≤ S512x4096.size a
  inb_S512x128_S512x16_0_16 : ∀ a, (![0, 16] : Fin 2 → Nat) a + S512x16.size a ≤ S512x128.size a
  packedbf16_S512x4096_S512x512_0_512 : (Rect.unit (s := S512x4096) ![0, 512] S512x512.size inb_S512x4096_S512x512_0_512).PackedRows (EltTy.packing .bf16)
  inb_S512x4096_S512x512_0_1024 : ∀ a, (![0, 1024] : Fin 2 → Nat) a + S512x512.size a ≤ S512x4096.size a
  inb_S512x128_S512x16_0_32 : ∀ a, (![0, 32] : Fin 2 → Nat) a + S512x16.size a ≤ S512x128.size a
  packedbf16_S512x4096_S512x512_0_1024 : (Rect.unit (s := S512x4096) ![0, 1024] S512x512.size inb_S512x4096_S512x512_0_1024).PackedRows (EltTy.packing .bf16)
  inb_S512x4096_S512x512_0_1536 : ∀ a, (![0, 1536] : Fin 2 → Nat) a + S512x512.size a ≤ S512x4096.size a
  inb_S512x128_S512x16_0_48 : ∀ a, (![0, 48] : Fin 2 → Nat) a + S512x16.size a ≤ S512x128.size a
  packedbf16_S512x4096_S512x512_0_1536 : (Rect.unit (s := S512x4096) ![0, 1536] S512x512.size inb_S512x4096_S512x512_0_1536).PackedRows (EltTy.packing .bf16)
  inb_S512x4096_S512x512_0_2048 : ∀ a, (![0, 2048] : Fin 2 → Nat) a + S512x512.size a ≤ S512x4096.size a
  inb_S512x128_S512x16_0_64 : ∀ a, (![0, 64] : Fin 2 → Nat) a + S512x16.size a ≤ S512x128.size a
  packedbf16_S512x4096_S512x512_0_2048 : (Rect.unit (s := S512x4096) ![0, 2048] S512x512.size inb_S512x4096_S512x512_0_2048).PackedRows (EltTy.packing .bf16)
  inb_S512x4096_S512x512_0_2560 : ∀ a, (![0, 2560] : Fin 2 → Nat) a + S512x512.size a ≤ S512x4096.size a
  inb_S512x128_S512x16_0_80 : ∀ a, (![0, 80] : Fin 2 → Nat) a + S512x16.size a ≤ S512x128.size a
  packedbf16_S512x4096_S512x512_0_2560 : (Rect.unit (s := S512x4096) ![0, 2560] S512x512.size inb_S512x4096_S512x512_0_2560).PackedRows (EltTy.packing .bf16)
  inb_S512x4096_S512x512_0_3072 : ∀ a, (![0, 3072] : Fin 2 → Nat) a + S512x512.size a ≤ S512x4096.size a
  inb_S512x128_S512x16_0_96 : ∀ a, (![0, 96] : Fin 2 → Nat) a + S512x16.size a ≤ S512x128.size a
  packedbf16_S512x4096_S512x512_0_3072 : (Rect.unit (s := S512x4096) ![0, 3072] S512x512.size inb_S512x4096_S512x512_0_3072).PackedRows (EltTy.packing .bf16)
  inb_S512x4096_S512x512_0_3584 : ∀ a, (![0, 3584] : Fin 2 → Nat) a + S512x512.size a ≤ S512x4096.size a
  inb_S512x128_S512x16_0_112 : ∀ a, (![0, 112] : Fin 2 → Nat) a + S512x16.size a ≤ S512x128.size a
  packedbf16_S512x4096_S512x512_0_3584 : (Rect.unit (s := S512x4096) ![0, 3584] S512x512.size inb_S512x4096_S512x512_0_3584).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  shapeCasts_S4096x16384_S2x2048x16384 : S4096x16384.ShapeCasts S2x2048x16384
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .i32 = 32 ∨ (Rect.block (s := S16384x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S16384x128.size a
  hwx0_2 : ∀ i : grid0.Coords, EltTy.bits .f32 = 32 ∨ (Rect.block (s := S16384x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x16384.size a
  hwx0_4 : ∀ i : grid0.Coords, EltTy.bits .f32 = 32 ∨ (Rect.block (s := S4096x16384) S512x512.size (cc0_transform_4 i) (hinb0_4 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S16384x128 : Shape := ⟨2, ![16384, 128]⟩
abbrev S16384 : Shape := ⟨1, ![16384]⟩
abbrev S16384x128x32 : Shape := ⟨3, ![16384, 128, 32]⟩
abbrev S16384x128x1 : Shape := ⟨3, ![16384, 128, 1]⟩
abbrev S2x2048x16384 : Shape := ⟨3, ![2, 2048, 16384]⟩
abbrev S1x1x16384 : Shape := ⟨3, ![1, 1, 16384]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384x128, .f32⟩
  | .hbm, ⟨3, _⟩ => ⟨S16384, .f32⟩
  | .hbm, ⟨4, _⟩ => ⟨S16384x4096, .f32⟩
  | .hbm, ⟨5, _⟩ => ⟨S16384x128x32, .f32⟩
  | .hbm, ⟨6, _⟩ => ⟨S16384x128x1, .f32⟩
  | .hbm, ⟨7, _⟩ => ⟨S16384x128x32, .f32⟩
  | .hbm, ⟨8, _⟩ => ⟨S16384x128x32, .f32⟩
  | .hbm, ⟨9, _⟩ => ⟨S16384x4096, .f32⟩
  | .hbm, ⟨10, _⟩ => ⟨S2x2048x16384, .f32⟩
  | .hbm, ⟨11, _⟩ => ⟨S1x1x16384, .f32⟩
  | .hbm, ⟨12, _⟩ => ⟨S2x2048x16384, .f32⟩
  | .hbm, ⟨13, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S16384x4096_S16384x128x32 : S16384x4096.ShapeCasts S16384x128x32
  bcast_S16384x128_S16384x128x1_0_1 : S16384x128.BroadcastsInDim S16384x128x1 (![0, 1] : Fin 2 → Fin S16384x128x1.rank)
  bcast_S16384x128x1_S16384x128x32_0_1_2 : S16384x128x1.BroadcastsInDim S16384x128x32 (![0, 1, 2] : Fin 3 → Fin S16384x128x32.rank)
  shapeCasts_S16384x128x32_S16384x4096 : S16384x128x32.ShapeCasts S16384x4096
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  dot_S2x2048x4096_S16384x4096_S2x2048x16384_2_1_01_0_n_n_wf : DotDims.WF S2x2048x4096 S16384x4096 S2x2048x16384 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf

class Facts : Prop extends Facts₀ where

variable [Facts]
-- ==== Proof.Spec.lean ====
/-
  The mathematics of a block-quantized linear layer, over the extended reals.

  A weight matrix is stored as signed integers q (o, d) with one scale per run of 32 columns:
  the weight is  w (o, d) = q (o, d) * s (o, d / 32).  The layer is
      y (r, o) = (∑ d, x (r, d) * w (o, d)) + b o.
  This module states the weight and the layer once, over literal shapes, and reads the two
  vector-unit spelling of one 512-column chunk of a 512-row weight tile, dequantized through a
  [512, 16, 32] view, at an index.
-/
import Idealize.ShloMosaic.PureOps.Ideal
import Idealize.ShloMosaic.Lib.ValueIdx
import Idealize.ShloMosaic.Lib.Pipeline.Value

noncomputable section

namespace Cert.QLinear

open Idealize.ShloMosaic Idealize.ShloMosaic.ValueIdx

/-! ## Shapes -/

abbrev T512x512 : Shape := ⟨2, ![512, 512]⟩
abbrev T512x16 : Shape := ⟨2, ![512, 16]⟩
abbrev T512x16x32 : Shape := ⟨3, ![512, 16, 32]⟩
abbrev T512x16x1 : Shape := ⟨3, ![512, 16, 1]⟩

/-! ## One chunk of a weight tile -/

/-- The scale column of column `q` inside a 512-column chunk: runs of 32 columns share a scale. -/
abbrev run32 (q : Fin 512) : Fin 16 := ⟨q.val / 32, by have := q.isLt; omega⟩

/-- The position of column `q` inside its run of 32. -/
abbrev pos32 (q : Fin 512) : Fin 32 := ⟨q.val % 32, Nat.mod_lt _ (by decide)⟩

/-- A [512, 512] chunk of integers, viewed [512, 16, 32], times its [512, 16] scales broadcast along
    the last axis, viewed [512, 512] again (the format changes and the same-shape casts are the
    identity): at (p, q) it is the integer at (p, q), read signed, times the scale at (p, q / 32). -/
theorem dequantChunk_apply (v : IVec T512x512 32) (s : FVec Ideal T512x16 .f32)
    (h1 : T512x512.ShapeCasts T512x16x32) (h2 : T512x16.ShapeCasts T512x16x1)
    (h3 : T512x16x1.ShapeCasts T512x16x1) (h4 : T512x16x1.Broadcasts T512x16x32)
    (h5 : T512x16x32.ShapeCasts T512x512) (h6 : T512x512.ShapeCasts T512x512)
    (hb : FTy.bits .bf16 < FTy.bits .f32) (p q : Fin 512) :
    shapeCast T512x512 (truncf (F := Ideal) .bf16 (shapeCast T512x512
        (mulf (shapeCast T512x16x32 (sitofp (F := Ideal) .f32 v) h1)
          (broadcastTo T512x16x32 (shapeCast T512x16x1 (shapeCast T512x16x1 s h2) h3) h4)) h5) hb) h6 (ix2 p q)
      = FloatOps.sitofp (F := Ideal) .f32 (v (ix2 p q)) * s (ix2 p (run32 q)) := by
  have hp := p.isLt
  have hq := q.isLt
  rw [shapeCast_self, shapeCast_self, truncf_apply,
    shapeCast_apply _ h5 (ix2 p q) (ix3 p (run32 q) (pos32 q)) (by
      rw [Shape.rowMajor_val_three, Shape.rowMajor_val_two]
      show (p.val * 16 + q.val / 32) * 32 + q.val % 32 = p.val * 512 + q.val
      omega),
    mulf_apply,
    shapeCast_apply _ h1 (ix3 p (run32 q) (pos32 q)) (ix2 p q) (by
      rw [Shape.rowMajor_val_three, Shape.rowMajor_val_two]
      show p.val * 512 + q.val = (p.val * 16 + q.val / 32) * 32 + q.val % 32
      omega),
    broadcastTo_apply _ h4 (ix3 p (run32 q) (pos32 q)) (ix3 p (run32 q) (0 : Fin 1)) (fun a => by
      match a with
      | ⟨0, _⟩ => show p.val = if (512 : Nat) = 1 then 0 else p.val; rw [if_neg (by decide)]
      | ⟨1, _⟩ => show q.val / 32 = if (16 : Nat) = 1 then 0 else q.val / 32; rw [if_neg (by decide)]
      | ⟨2, _⟩ => show 0 = if (1 : Nat) = 1 then 0 else q.val % 32; rw [if_pos rfl]),
    shapeCast_apply _ h2 (ix3 p (run32 q) (0 : Fin 1)) (ix2 p (run32 q)) (by
      rw [Shape.rowMajor_val_three, Shape.rowMajor_val_two]
      show p.val * 16 + q.val / 32 = (p.val * 16 + q.val / 32) * 1 + 0
      omega)]
  rfl

/-! ## A whole weight tile and the layer -/

abbrev T512x4096 : Shape := ⟨2, ![512, 4096]⟩
abbrev T512x128 : Shape := ⟨2, ![512, 128]⟩

/-- The scale column of weight column `d`. -/
abbrev run (d : Fin 4096) : Fin 128 := ⟨d.val / 32, by have := d.isLt; omega⟩

/-- A 512-row tile of the weight: the integer read signed times its run's scale. -/
def weightTile (q : IVec T512x4096 32) (s : FVec Ideal T512x128 .f32) : FVec Ideal T512x4096 .bf16 :=
  fun y => FloatOps.sitofp (F := Ideal) .f32 (q y) * s (ix2 (y 0) (run (y 1)))

theorem weightTile_apply (q : IVec T512x4096 32) (s : FVec Ideal T512x128 .f32) (p : Fin 512) (d : Fin 4096) :
    weightTile q s (ix2 p d) = FloatOps.sitofp (F := Ideal) .f32 (q (ix2 p d)) * s (ix2 p (run d)) := rfl

/-! ## The layer -/

abbrev TX : Shape := ⟨3, ![2, 2048, 4096]⟩
abbrev TQ : Shape := ⟨2, ![16384, 4096]⟩
abbrev TS : Shape := ⟨2, ![16384, 128]⟩
abbrev TB : Shape := ⟨1, ![16384]⟩
abbrev TY : Shape := ⟨3, ![2, 2048, 16384]⟩

/-- The weight: the integer read signed times the scale of its run of 32 columns. -/
def weight (q : IVec TQ 32) (s : FVec Ideal TS .f32) (o : Fin 16384) (d : Fin 4096) : EReal :=
  FloatOps.sitofp (F := Ideal) .f32 (q (ix2 o d)) * s (ix2 o (run d))

/-- The layer at (b, t, o): y (b, t, o) = (∑ d, x (b, t, d) * w (o, d)) + bias o. -/
def layerAt (x : FVec Ideal TX .f32) (q : IVec TQ 32) (s : FVec Ideal TS .f32) (bias : FVec Ideal TB .f32)
    (b : Fin 2) (t : Fin 2048) (o : Fin 16384) : EReal :=
  (∑ k : Fin 4096, x (ix3 b t k) * weight q s o k) + bias (ix1 o)

/-- The layer, as an array. -/
def layer (x : FVec Ideal TX .f32) (q : IVec TQ 32) (s : FVec Ideal TS .f32) (bias : FVec Ideal TB .f32) :
    FVec Ideal TY .f32 :=
  fun i => layerAt x q s bias (i 0) (i 1) (i 2)

theorem layer_apply (x : FVec Ideal TX .f32) (q : IVec TQ 32) (s : FVec Ideal TS .f32) (bias : FVec Ideal TB .f32)
    (b : Fin 2) (t : Fin 2048) (o : Fin 16384) : layer x q s bias (ix3 b t o) = layerAt x q s bias b t o := rfl

end Cert.QLinear

end
-- ==== Proof.LibUnitRect.lean ====
/-
  Reading a matrix through a unit-stride rectangle.

  A unit-stride rectangle of an N0 × N1 matrix with first row o0, first column o1 and n0 × n1 entries places its own
  index (a, b) at the matrix index (o0 + a, o1 + b). This is what a load or a store through such a rectangle reads or
  writes, entry by entry: a body that handles a block in several rectangular pieces is read piece by piece with it.
  The target coordinates are taken as arbitrary indices with their values given by hypotheses, so that a caller can name
  them in whatever form its own statement uses (a literal offset, a grid coordinate's multiple, a computed offset known
  only through an equation) and never has to rewrite the rectangle itself, whose bounds proof depends on the offsets.
-/
import Idealize.ShloMosaic.Lib.ValueIdx

namespace Cert.LibUnitRect

open Idealize.ShloMosaic Idealize.ShloMosaic.ValueIdx

/-- A unit-stride rectangle of a matrix places its own index `x` at (first row + x 0, first column + x 1): for any
    matrix indices `a`, `b` with those values, `idx x = (a, b)`. -/
theorem unit_idx2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).idx x = ix2 a b := by
  funext d; apply Fin.ext
  match d with
  | ⟨0, _⟩ => show off 0 + 1 * (x 0).val = a.val; omega
  | ⟨1, _⟩ => show off 1 + 1 * (x 1).val = b.val; omega

/-- The same for the rectangle's embedding (a store's side of the same reading). -/
theorem unit_emb2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).emb x = ix2 a b :=
  unit_idx2 off size inb x a b ha hb

end Cert.LibUnitRect
-- ==== Proof.Tile.lean ====
/-
  The kernel body's arithmetic at an index, over the extended reals.

  The body fills its weight scratch in eight chunks of 512 columns, each the same function of a
  [512, 512] block of integers and a [512, 16] block of scales; read through the chunk's rectangle,
  every chunk is the matching part of one weight tile. The output tile is the activation tile times
  the transpose of the weight tile, plus the bias row.
-/
import proofs.«179440_j47648367182529_2_alg».proof.Proof.Gen.KernelIdeal.Skeleton
import proofs.«179440_j47648367182529_2_alg».proof.Proof.Spec
import proofs.«179440_j47648367182529_2_alg».proof.Proof.LibUnitRect
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.QLinear Cert.LibUnitRect

/-- What one chunk computes, at (p, q) of the chunk. -/
def IsChunk (f : Vec Ideal S512x512 .i32 → Vec Ideal S512x16 .f32 → FVec Ideal S512x512 .bf16) : Prop :=
  ∀ (v : Vec Ideal S512x512 .i32) (s : Vec Ideal S512x16 .f32) (p q : Fin 512),
    f v s (ix2 p q) = FloatOps.sitofp (F := Ideal) .f32 (v (ix2 p q)) * s (ix2 p (run32 q))

theorem chunk1 : IsChunk (k0_pay1 (F := Ideal)) := fun v s p q => by
  unfold k0_pay1; exact dequantChunk_apply v s _ _ _ _ _ _ _ p q
theorem chunk2 : IsChunk (k0_pay2 (F := Ideal)) := fun v s p q => by
  unfold k0_pay2; exact dequantChunk_apply v s _ _ _ _ _ _ _ p q
theorem chunk4 : IsChunk (k0_pay4 (F := Ideal)) := fun v s p q => by
  unfold k0_pay4; exact dequantChunk_apply v s _ _ _ _ _ _ _ p q
theorem chunk5 : IsChunk (k0_pay5 (F := Ideal)) := fun v s p q => by
  unfold k0_pay5; exact dequantChunk_apply v s _ _ _ _ _ _ _ p q
theorem chunk6 : IsChunk (k0_pay6 (F := Ideal)) := fun v s p q => by
  unfold k0_pay6; exact dequantChunk_apply v s _ _ _ _ _ _ _ p q
theorem chunk7 : IsChunk (k0_pay7 (F := Ideal)) := fun v s p q => by
  unfold k0_pay7; exact dequantChunk_apply v s _ _ _ _ _ _ _ p q
theorem chunk8 : IsChunk (k0_pay8 (F := Ideal)) := fun v s p q => by
  unfold k0_pay8; exact dequantChunk_apply v s _ _ _ _ _ _ _ p q
theorem chunk9 : IsChunk (k0_pay9 (F := Ideal)) := fun v s p q => by
  unfold k0_pay9; exact dequantChunk_apply v s _ _ _ _ _ _ _ p q

/-- A chunk computed from the blocks at column offset `o1` of the integers and `o2 = o1 / 32` of the
    scales is the weight tile under the chunk's own rectangle. -/
theorem chunk_at (f : Vec Ideal S512x512 .i32 → Vec Ideal S512x16 .f32 → FVec Ideal S512x512 .bf16) (hf : IsChunk f)
    (x1 : Vec Ideal S512x4096 .i32) (x2 : Vec Ideal S512x128 .f32) (o1 o2 : Nat) (ho : o1 = 32 * o2)
    (inb1 : ∀ a, (![0, o1] : Fin 2 → Nat) a + S512x512.size a ≤ S512x4096.size a)
    (inb2 : ∀ a, (![0, o2] : Fin 2 → Nat) a + S512x16.size a ≤ S512x128.size a)
    (p q : Fin 512) :
    f (View.ld x1 (Rect.unit (s := S512x4096) ![0, o1] S512x512.size inb1))
        (View.ld x2 (Rect.unit (s := S512x128) ![0, o2] S512x16.size inb2)) (ix2 p q)
      = weightTile x1 x2 ((Rect.unit (s := S512x4096) ![0, o1] S512x512.size inb1).emb (ix2 p q)) := by
  have hq := q.isLt
  have h1 : o1 + 512 ≤ 4096 := inb1 1
  have h2 : o2 + 16 ≤ 128 := inb2 1
  rw [hf, unit_emb2 ![0, o1] S512x512.size inb1 (ix2 p q) p ⟨o1 + q.val, by omega⟩
    (show p.val = 0 + p.val by omega) rfl, weightTile_apply]
  show FloatOps.sitofp (F := Ideal) .f32 (x1 ((Rect.unit (s := S512x4096) ![0, o1] S512x512.size inb1).idx (ix2 p q)))
      * x2 ((Rect.unit (s := S512x128) ![0, o2] S512x16.size inb2).idx (ix2 p (run32 q))) = _
  rw [unit_idx2 ![0, o1] S512x512.size inb1 (ix2 p q) p ⟨o1 + q.val, by omega⟩ (show p.val = 0 + p.val by omega) rfl,
    unit_idx2 ![0, o2] S512x16.size inb2 (ix2 p (run32 q)) p (run ⟨o1 + q.val, by omega⟩)
      (show p.val = 0 + p.val by omega) (show (o1 + q.val) / 32 = o2 + q.val / 32 by omega)]

/-! ## The output tile -/

/-- The dot's operand indices at output (r, c) and contraction index k: the left operand is read at
    (r, k), the right at (c, k). -/
theorem lhs_row (j : S512x512.Idx) (q : dot_S512x4096_S512x4096_S512x512_1_1_0_0_n_n.contr.Idx) :
    (dot_S512x4096_S512x4096_S512x512_1_1_0_0_n_n.lhsIdx j q 0).val = (j 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl
theorem lhs_col (j : S512x512.Idx) (q : dot_S512x4096_S512x4096_S512x512_1_1_0_0_n_n.contr.Idx) :
    (dot_S512x4096_S512x4096_S512x512_1_1_0_0_n_n.lhsIdx j q 1).val = (q ⟨0, by decide⟩).val :=
  dot_S512x4096_S512x4096_S512x512_1_1_0_0_n_n.lhsIdx_val_of_single rfl j q
theorem rhs_row (j : S512x512.Idx) (q : dot_S512x4096_S512x4096_S512x512_1_1_0_0_n_n.contr.Idx) :
    (dot_S512x4096_S512x4096_S512x512_1_1_0_0_n_n.rhsIdx j q 0).val = (j 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl
theorem rhs_col (j : S512x512.Idx) (q : dot_S512x4096_S512x4096_S512x512_1_1_0_0_n_n.contr.Idx) :
    (dot_S512x4096_S512x4096_S512x512_1_1_0_0_n_n.rhsIdx j q 1).val = (q ⟨0, by decide⟩).val :=
  dot_S512x4096_S512x4096_S512x512_1_1_0_0_n_n.rhsIdx_val_of_single rfl j q

/-- The body's output tile at (r, c): the sum over k of the activation at (r, k) times the weight at
    (c, k), plus the bias at c. -/
theorem pay_tile (a : Vec Ideal S512x4096 .bf16) (w : Vec Ideal S512x4096 .bf16) (b : Vec Ideal S1x512 .f32)
    (r c : Fin 512) :
    k0_pay3 (F := Ideal) a w b (ix2 r c) = (∑ k : Fin 4096, a (ix2 r k) * w (ix2 c k)) + b (ix2 (0 : Fin 1) c) := by
  unfold k0_pay3
  rw [addf_apply, shapeCast_self, shapeCast_self,
    broadcastTo_apply _ broadcasts_S1x512_S512x512 (ix2 r c) (ix2 (0 : Fin 1) c) (fun d => by
      match d with
      | ⟨0, _⟩ => show 0 = if (1 : Nat) = 1 then 0 else r.val; rw [if_pos rfl]
      | ⟨1, _⟩ => show c.val = if (512 : Nat) = 1 then 0 else c.val; rw [if_neg (by decide)])]
  congr 1
  simp only [matmul]
  rw [Ideal.matmul_constant_zero_apply,
    ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 r c)
      ((contrEquiv1 dot_S512x4096_S512x4096_S512x512_1_1_0_0_n_n 4096 rfl rfl).symm k) = ix2 r k :=
    funext fun d => Fin.ext (by
      match d with
      | ⟨0, _⟩ => exact lhs_row _ _
      | ⟨1, _⟩ => exact (lhs_col _ _).trans hk)
  have er : dot_S512x4096_S512x4096_S512x512_1_1_0_0_n_n.rhsIdx (ix2 r c)
      ((contrEquiv1 dot_S512x4096_S512x4096_S512x512_1_1_0_0_n_n 4096 rfl rfl).symm k) = ix2 c k :=
    funext fun d => Fin.ext (by
      match d with
      | ⟨0, _⟩ => exact rhs_row _ _
      | ⟨1, _⟩ => exact (rhs_col _ _).trans hk)
  rw [el, er]

end Cert.KernelIdeal.Tile

end
-- ==== Proof.Pieces.lean ====
/-
  What one run of the body leaves, as values over the extended reals.

  At the first row tile of a column tile the body fills its weight scratch in eight chunks and then
  computes the output tile from the scratch it just filled; at the other row tiles it computes the
  output tile from the scratch as the point before left it. Either way the output tile is the tile
  product of the activation block, the scratch and the bias block; and the eight chunks together
  are one weight tile of the integer and scale blocks.
-/
import proofs.«179440_j47648367182529_2_alg».proof.Proof.Gen.KernelIdeal.Frame
import proofs.«179440_j47648367182529_2_alg».proof.Proof.Tile
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.ValueIdx Cert.QLinear Cert.KernelIdeal.Tile

theorem hz : (![0, 0] : Fin 2 → Nat) = fun _ => 0 := funext fun a => by fin_cases a <;> rfl

/-- The eight chunks the body stores at a column tile's first point are, together, the weight tile of
    its integer block and its scale block. -/
theorem chunks_canon (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x128 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (hc0 : cond0_0 i)
    (x0 : Vec Ideal S512x4096 .bf16) (x1 : Vec Ideal S512x4096 .i32) (x2 : Vec Ideal S512x128 .f32) (x3 : Vec Ideal S1x512 .f32) :
    View.canon (kernelRun0_A (F := Ideal) c i arg2 harg2 arg3 harg3 arg4 harg4 arg5 harg5 arg6 harg6 arg7 harg7 hc0 x0 x1 x2 x3).2.1 = weightTile x1 x2 := by
  funext y
  refine View.canon_apply_of_pieces (weightTile x1 x2) _ ?_ y (scover0_A_0 c i arg2 harg2 arg3 harg3 arg4 harg4 arg5 harg5 arg6 harg6 arg7 harg7 hc0 x0 x1 x2 x3 y)
  unfold kernelRun0_A
  dsimp only
  sl_unfold_words
  simp only [View.readAt_eq_ld, harg3.read_unread, harg4.read_unread]
  intro pc hpc
  simp only [List.mem_cons, List.not_mem_nil, or_false] at hpc
  rcases hpc with rfl | rfl | rfl | rfl | rfl | rfl | rfl | rfl
  · intro z; obtain ⟨p, q, rfl⟩ : ∃ (p q : Fin 512), z = ix2 p q := ⟨z 0, z 1, eq_ix2 z⟩
    exact chunk_at _ chunk2 x1 x2 3584 112 rfl _ _ p q
  · intro z; obtain ⟨p, q, rfl⟩ : ∃ (p q : Fin 512), z = ix2 p q := ⟨z 0, z 1, eq_ix2 z⟩
    exact chunk_at _ chunk1 x1 x2 3072 96 rfl _ _ p q
  · intro z; obtain ⟨p, q, rfl⟩ : ∃ (p q : Fin 512), z = ix2 p q := ⟨z 0, z 1, eq_ix2 z⟩
    exact chunk_at _ chunk9 x1 x2 2560 80 rfl _ _ p q
  · intro z; obtain ⟨p, q, rfl⟩ : ∃ (p q : Fin 512), z = ix2 p q := ⟨z 0, z 1, eq_ix2 z⟩
    exact chunk_at _ chunk8 x1 x2 2048 64 rfl _ _ p q
  · intro z; obtain ⟨p, q, rfl⟩ : ∃ (p q : Fin 512), z = ix2 p q := ⟨z 0, z 1, eq_ix2 z⟩
    exact chunk_at _ chunk7 x1 x2 1536 48 rfl _ _ p q
  · intro z; obtain ⟨p, q, rfl⟩ : ∃ (p q : Fin 512), z = ix2 p q := ⟨z 0, z 1, eq_ix2 z⟩
    exact chunk_at _ chunk6 x1 x2 1024 32 rfl _ _ p q
  · intro z; obtain ⟨p, q, rfl⟩ : ∃ (p q : Fin 512), z = ix2 p q := ⟨z 0, z 1, eq_ix2 z⟩
    exact chunk_at _ chunk5 x1 x2 512 16 rfl _ _ p q
  · intro z; obtain ⟨p, q, rfl⟩ : ∃ (p q : Fin 512), z = ix2 p q := ⟨z 0, z 1, eq_ix2 z⟩
    exact chunk_at _ chunk4 x1 x2 0 0 rfl _ _ p q

/-- So after a column tile's first point the scratch holds that weight tile. -/
theorem scratch_first (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x128 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (hc0 : cond0_0 i)
    (x0 : Vec Ideal S512x4096 .bf16) (x1 : Vec Ideal S512x4096 .i32) (x2 : Vec Ideal S512x128 .f32) (x3 : Vec Ideal S1x512 .f32) :
    sout0_A_0 (F := Ideal) c i arg2 harg2 arg3 harg3 arg4 harg4 arg5 harg5 arg6 harg6 arg7 harg7 hc0 x0 x1 x2 x3 = weightTile x1 x2 := by
  unfold sout0_A_0
  rw [View.read_writes_eq_canon _ _ _ (scover0_A_0 c i arg2 harg2 arg3 harg3 arg4 harg4 arg5 harg5 arg6 harg6 arg7 harg7 hc0 x0 x1 x2 x3)]
  exact chunks_canon c i arg2 harg2 arg3 harg3 arg4 harg4 arg5 harg5 arg6 harg6 arg7 harg7 hc0 x0 x1 x2 x3

/-- The output tile at a later row tile: the tile product over the scratch as the point before left it. -/
theorem out_later (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x128 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (hc0 : ¬cond0_0 i)
    (x0 : Vec Ideal S512x4096 .bf16) (x1 : Vec Ideal S512x4096 .i32) (x2 : Vec Ideal S512x128 .f32) (x3 : Vec Ideal S1x512 .f32) (xs0 : Vec Ideal S512x4096 .bf16) :
    out0_B_4 (F := Ideal) c i arg2 harg2 arg3 harg3 arg4 harg4 arg5 harg5 arg6 harg6 arg7 harg7 hc0 x0 x1 x2 x3 xs0 = k0_pay3 x0 xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  rw [View.canon_unit_zero hz]
  simp only [View.readAt_eq_ld, harg2.read_unread, harg5.read_unread, harg7.read_unread,
    View.ld_unit_zero (S := S512x4096) hz, View.ld_unit_zero (S := S1x512) hz]

/-- The output tile at a column tile's first point: the tile product over the weight tile just stored. -/
theorem out_first (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x128 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x4096 .bf16) (harg7 : arg7.IsWhole) (hc0 : cond0_0 i)
    (x0 : Vec Ideal S512x4096 .bf16) (x1 : Vec Ideal S512x4096 .i32) (x2 : Vec Ideal S512x128 .f32) (x3 : Vec Ideal S1x512 .f32) :
    out0_A_4 (F := Ideal) c i arg2 harg2 arg3 harg3 arg4 harg4 arg5 harg5 arg6 harg6 arg7 harg7 hc0 x0 x1 x2 x3 = k0_pay3 x0 (weightTile x1 x2) x3 := by
  have key := View.readCov_eq_canon_ld (Val := Elt Ideal) arg7.view _
    (Rect.unit (s := S512x4096) ![0, 0] S512x4096.size inb_S512x4096_S512x4096_0_0)
    (scover0_A_0 c i arg2 harg2 arg3 harg3 arg4 harg4 arg5 harg5 arg6 harg6 arg7 harg7 hc0 x0 x1 x2 x3)
  rw [chunks_canon c i arg2 harg2 arg3 harg3 arg4 harg4 arg5 harg5 arg6 harg6 arg7 harg7 hc0 x0 x1 x2 x3, View.ld_unit_zero (S := S512x4096) hz] at key
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg5.read_unread,
    View.ld_unit_zero (S := S512x4096) hz, View.ld_unit_zero (S := S1x512) hz]
  exact congrArg (fun w => k0_pay3 x0 w x3) key

end Cert.KernelIdeal.Pieces

end
-- ==== Proof.Blocks.lean ====
/-
  The blocks the grid reads, and the weight scratch point by point.

  Grid point t = 8 j + i handles row tile i (rows 512 i … 512 i + 511 of the 4096 activations) of
  column tile j (output columns 512 j … 512 j + 511). Its activation block is rows 512 i … of the
  activations, its integer, scale and bias blocks are rows (columns, for the bias) 512 j … of theirs.
  The weight scratch is filled at i = 0 and kept while i runs, so at every point it holds the
  weight tile of column tile j = t / 8; hence the output tile at every point is the tile product
  of the activation block, that weight tile and the bias block.
-/
import proofs.«179440_j47648367182529_2_alg».proof.Proof.Pieces

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.QLinear Cert.KernelIdeal.Tile Cert.KernelIdeal.Pieces

variable (m : (ℓ : Loc nD τ sig) → Buf (Elt Ideal) ℓ)

/-- The windows' block indices at point t = 8 j + i, decided over the grid: the activations move with i,
    the integers, scales and bias with j, the output with both. -/
theorem idx_facts : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val / 8
    ∧ win0_4.index t (0 : Fin 2) = t.val % 8 ∧ win0_4.index t (1 : Fin 2) = t.val / 8 :=
  (by decide +kernel : ∀ t : Fin grid0.N, _)

theorem N256 : cfg0.N = 256 := N_0

/-- The activation block at point t, at (r, k): row 512 (t % 8) + r of the activations. -/
theorem act_apply (c : Dev nD) (t : Fin cfg0.N) (r : Fin 512) (k : Fin 4096) (R : Fin 4096)
    (hR : R.val = 512 * (t.val % 8) + r.val) :
    iblk m c 0 t (ix2 r k) = V m c main_v1 (ix2 R k) := by
  obtain ⟨e0, e1, -⟩ := idx_facts t
  unfold iblk
  rw [View.read_apply]
  refine congrArg (V m c main_v1) (funext fun a => Fin.ext ?_)
  match a with
  | ⟨0, _⟩ => show win0_0.index t (0 : Fin 2) * 512 + 1 * r.val = R.val; omega
  | ⟨1, _⟩ => show win0_0.index t (1 : Fin 2) * 4096 + 1 * k.val = k.val; omega

/-- The integer block at point t, at (p, d): row 512 (t / 8) + p of the integers. -/
theorem int_apply (c : Dev nD) (t : Fin cfg0.N) (p : Fin 512) (d : Fin 4096) (O : Fin 16384)
    (hO : O.val = 512 * (t.val / 8) + p.val) :
    iblk m c 1 t (ix2 p d) = V m c main_arg1 (ix2 O d) := by
  obtain ⟨-, -, e0, e1, -⟩ := idx_facts t
  unfold iblk
  rw [View.read_apply]
  refine congrArg (V m c main_arg1) (funext fun a => Fin.ext ?_)
  match a with
  | ⟨0, _⟩ => show win0_1.index t (0 : Fin 2) * 512 + 1 * p.val = O.val; omega
  | ⟨1, _⟩ => show win0_1.index t (1 : Fin 2) * 4096 + 1 * d.val = d.val; omega

/-- The scale block at point t, at (p, g): row 512 (t / 8) + p of the scales. -/
theorem scale_apply (c : Dev nD) (t : Fin cfg0.N) (p : Fin 512) (g : Fin 128) (O : Fin 16384)
    (hO : O.val = 512 * (t.val / 8) + p.val) :
    iblk m c 2 t (ix2 p g) = V m c main_arg2 (ix2 O g) := by
  obtain ⟨-, -, -, -, e0, e1, -⟩ := idx_facts t
  unfold iblk
  rw [View.read_apply]
  refine congrArg (V m c main_arg2) (funext fun a => Fin.ext ?_)
  match a with
  | ⟨0, _⟩ => show win0_2.index t (0 : Fin 2) * 512 + 1 * p.val = O.val; omega
  | ⟨1, _⟩ => show win0_2.index t (1 : Fin 2) * 128 + 1 * g.val = g.val; omega

/-- The bias block at point t, at (0, q): column 512 (t / 8) + q of the bias row. -/
theorem bias_apply (c : Dev nD) (t : Fin cfg0.N) (q : Fin 512) (O : Fin 16384)
    (hO : O.val = 512 * (t.val / 8) + q.val) :
    iblk m c 3 t (ix2 (0 : Fin 1) q) = V m c main_v2 (ix2 (0 : Fin 1) O) := by
  obtain ⟨-, -, -, -, -, -, e0, e1, -⟩ := idx_facts t
  unfold iblk
  rw [View.read_apply]
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 512 + 1 * q.val = O.val; omega

/-! ## The weight tile of a column tile -/

/-- The weight tile of column tile `j`, from the whole integer and scale arrays. -/
def colTile (A1 : Vec Ideal S16384x4096 .i32) (A2 : Vec Ideal S16384x128 .f32) (j : Nat) (hj : j < 32) :
    Vec Ideal S512x4096 .bf16 :=
  fun y => FloatOps.sitofp (F := Ideal) .f32 (A1 (ix2 ⟨512 * j + (y 0).val, by have h : (y 0).val < 512 := (y 0).isLt; show _ < 16384; omega⟩ (y 1)))
    * A2 (ix2 ⟨512 * j + (y 0).val, by have h : (y 0).val < 512 := (y 0).isLt; show _ < 16384; omega⟩ (run (y 1)))

theorem div8_lt {n : Nat} (h : n < cfg0.N) : n / 8 < 32 := by have := N256; omega

/-- The weight tile of the integer and scale blocks at point t is column tile t / 8's. -/
theorem weightTile_blocks (c : Dev nD) (t : Fin cfg0.N) :
    weightTile (iblk m c 1 t) (iblk m c 2 t) = colTile (V m c main_arg1) (V m c main_arg2) (t.val / 8) (div8_lt t.isLt) := by
  funext y
  obtain ⟨p, d, rfl⟩ : ∃ (p : Fin 512) (d : Fin 4096), y = ix2 p d := ⟨y 0, y 1, eq_ix2 y⟩
  rw [weightTile_apply, int_apply m c t p d ⟨512 * (t.val / 8) + p.val, by have := div8_lt t.isLt; have := p.isLt; omega⟩ rfl,
    scale_apply m c t p (run d) ⟨512 * (t.val / 8) + p.val, by have := div8_lt t.isLt; have := p.isLt; omega⟩ rfl]
  rfl

/-! ## Every point's output tile and scratch -/

/-- After point n the scratch holds column tile n / 8's weight tile, and the output's staging buffer
    the tile product of the point's activation block, that weight tile and the point's bias block:
    by induction on the point — a column tile's first point stores the tile, the others keep it. -/
theorem outsAt_eq (c : Dev nD) : ∀ (n : ℕ) (h : n < cfg0.N),
    outsAt0 m c n h
      = (k0_pay3 (iblk m c 0 ⟨n, h⟩) (colTile (V m c main_arg1) (V m c main_arg2) (n / 8) (div8_lt h)) (iblk m c 3 ⟨n, h⟩),
         colTile (V m c main_arg1) (V m c main_arg2) (n / 8) (div8_lt h)) := by
  intro n
  induction n with
  | zero =>
    intro h
    rw [outsAt0_A m c ⟨0, h⟩ rfl,
      out_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) (ms0_4 ⟨0, h⟩) (hs0_4 ⟨0, h⟩) scM0_0 (Memref.isWhole_whole _) ((hcond0_0 ⟨0, h⟩).mpr rfl)
        (iblk m c 0 ⟨0, h⟩) (iblk m c 1 ⟨0, h⟩) (iblk m c 2 ⟨0, h⟩) (iblk m c 3 ⟨0, h⟩),
      scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) (ms0_4 ⟨0, h⟩) (hs0_4 ⟨0, h⟩) scM0_0 (Memref.isWhole_whole _) ((hcond0_0 ⟨0, h⟩).mpr rfl)
        (iblk m c 0 ⟨0, h⟩) (iblk m c 1 ⟨0, h⟩) (iblk m c 2 ⟨0, h⟩) (iblk m c 3 ⟨0, h⟩),
      weightTile_blocks m c ⟨0, h⟩]
  | succ n ih =>
    intro h
    by_cases h0 : (n + 1) % 8 = 0
    · rw [outsAt0_A m c ⟨n + 1, h⟩ h0,
        out_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0)
          (iblk m c 0 ⟨n + 1, h⟩) (iblk m c 1 ⟨n + 1, h⟩) (iblk m c 2 ⟨n + 1, h⟩) (iblk m c 3 ⟨n + 1, h⟩),
        scratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0)
          (iblk m c 0 ⟨n + 1, h⟩) (iblk m c 1 ⟨n + 1, h⟩) (iblk m c 2 ⟨n + 1, h⟩) (iblk m c 3 ⟨n + 1, h⟩),
        weightTile_blocks m c ⟨n + 1, h⟩]
    · have hprev : outsAt0 m c ((⟨n + 1, h⟩ : Fin cfg0.N).val - 1) (Nat.lt_of_le_of_lt (Nat.sub_le _ _) h)
          = outsAt0 m c n (Nat.lt_of_succ_lt h) := rfl
      have hdiv : (n + 1) / 8 = n / 8 := by omega
      have hkeep : colTile (V m c main_arg1) (V m c main_arg2) (n / 8) (div8_lt (Nat.lt_of_succ_lt h))
          = colTile (V m c main_arg1) (V m c main_arg2) ((n + 1) / 8) (div8_lt h) := by
        congr 1; exact hdiv.symm
      rw [outsAt0_B m c ⟨n + 1, h⟩ h0, hprev, ih (Nat.lt_of_succ_lt h)]
      dsimp only
      rw [out_later c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh))
          (iblk m c 0 ⟨n + 1, h⟩) (iblk m c 1 ⟨n + 1, h⟩) (iblk m c 2 ⟨n + 1, h⟩) (iblk m c 3 ⟨n + 1, h⟩)
          (colTile (V m c main_arg1) (V m c main_arg2) (n / 8) (div8_lt (Nat.lt_of_succ_lt h)))]
      unfold sout0_B_0
      rw [hkeep]

end Cert.KernelIdeal.Blocks

end
-- ==== Proof.Result.lean ====
/-
  The kernel's result array, as one function of the argument arrays.

  Point t = 8 j + i writes back output tile (i, j): at (r, q) of the tile, that is row 512 i + r and
  column 512 j + q of the [4096, 16384] output, the sum over k of the activation at (512 i + r, k)
  times the weight at (512 j + q, k), plus the bias at 512 j + q. The 256 tiles cover the output, so
  the output array ends at that function everywhere. Around the grid the program flattens the
  activations' two leading axes to rows (row = 2048 b + t) and views the [4096, 16384] output as
  [2, 2048, 16384] again: together, the layer of the arguments.
-/
import proofs.«179440_j47648367182529_2_alg».proof.Proof.Blocks
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Cert.QLinear Cert.KernelIdeal.Tile Cert.KernelIdeal.Pieces Cert.KernelIdeal.Blocks
open Idealize.ShloMosaic.Pipeline (Dat)

variable (m : (ℓ : Loc nD τ sig) → Buf (Elt Ideal) ℓ) (ρ : Dev nD → PrngReg)

/-- The [4096, 16384] output of the grid as one function of the flattened activations, the integers,
    the scales and the bias row. -/
def flatOut (X : Vec Ideal S4096x4096 .bf16) (A1 : Vec Ideal S16384x4096 .i32) (A2 : Vec Ideal S16384x128 .f32)
    (B : Vec Ideal S1x16384 .f32) : Vec Ideal S4096x16384 .f32 :=
  fun i => (∑ k : Fin 4096, X (ix2 (i 0) k) * weight A1 A2 (i 1) k) + B (ix2 (0 : Fin 1) (i 1))

theorem flatOut_apply (X : Vec Ideal S4096x4096 .bf16) (A1 : Vec Ideal S16384x4096 .i32) (A2 : Vec Ideal S16384x128 .f32)
    (B : Vec Ideal S1x16384 .f32) (R : Fin 4096) (O : Fin 16384) :
    flatOut X A1 A2 B (ix2 R O) = (∑ k : Fin 4096, X (ix2 R k) * weight A1 A2 O k) + B (ix2 (0 : Fin 1) O) := rfl

/-- What point t writes back is block t of that function of the arrays as the grid finds them. -/
theorem flushed_eq (c : Dev nD) (t : Fin cfg0.N) :
    (dats m 0 c).flushed 4 t = ((cfg0.win 4).blk t).view.read (Elt Ideal)
      (flatOut (V m c main_v1) (V m c main_arg1) (V m c main_arg2) (V m c main_v2)) := by
  show (cfg0.win 4).cut (grid0.coords t) ((dats m 0 c).after 4 t) = _
  rw [after0_4, outsAt_eq m c t.val t.isLt]
  have hN := N256
  have ht := t.isLt
  obtain ⟨-, -, -, -, -, -, -, -, e0, e1⟩ := idx_facts t
  funext y
  obtain ⟨r, q, rfl⟩ : ∃ (r q : Fin 512), y = ix2 r q := ⟨y 0, y 1, eq_ix2 y⟩
  have hr := r.isLt
  have hq := q.isLt
  have hemb : ((cfg0.win 4).blk t).view.emb (ix2 r q)
      = ix2 (⟨512 * (t.val % 8) + r.val, by omega⟩ : Fin 4096) (⟨512 * (t.val / 8) + q.val, by omega⟩ : Fin 16384) :=
    funext fun a => Fin.ext (by
      match a with
      | ⟨0, _⟩ => show win0_4.index t (0 : Fin 2) * 512 + 1 * r.val = 512 * (t.val % 8) + r.val; omega
      | ⟨1, _⟩ => show win0_4.index t (1 : Fin 2) * 512 + 1 * q.val = 512 * (t.val / 8) + q.val; omega)
  show k0_pay3 (iblk m c 0 t) (colTile (V m c main_arg1) (V m c main_arg2) (t.val / 8) (div8_lt t.isLt)) (iblk m c 3 t) (ix2 r q)
    = flatOut (V m c main_v1) (V m c main_arg1) (V m c main_arg2) (V m c main_v2) (((cfg0.win 4).blk t).view.emb (ix2 r q))
  rw [hemb, pay_tile, bias_apply m c t q ⟨512 * (t.val / 8) + q.val, by omega⟩ rfl]
  refine congrArg (· + _) (Finset.sum_congr rfl fun k _ => ?_)
  rw [act_apply m c t r k ⟨512 * (t.val % 8) + r.val, by omega⟩ rfl]
  rfl

/-- An index of the output is in point t's block iff each coordinate is in the block's range. -/
theorem mem_blk (t : Fin cfg0.N) (i : S4096x16384.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v3).slice (win0_4.rect t)).set ↔ _
  rw [View.set_slice_whole, Rect.mem_set_unit]
  exact Iff.rfl

/-- Row i₀ and column i₁ of the output lie in the block of point 8 (i₁ / 512) + i₀ / 512. -/
theorem cover (i : S4096x16384.Idx) :
    ∃ t : Fin cfg0.N, (cfg0.win 4).flush t = true ∧ i ∈ ((cfg0.win 4).blk t).view.set := by
  have hN := N256
  have h0 : (i 0).val < 4096 := (i 0).isLt
  have h1 : (i 1).val < 16384 := (i 1).isLt
  refine ⟨⟨8 * ((i 1).val / 512) + (i 0).val / 512, by omega⟩, flush0_4 _, ?_⟩
  rw [mem_blk]
  obtain ⟨-, -, -, -, -, -, -, -, e0, e1⟩ := idx_facts ⟨8 * ((i 1).val / 512) + (i 0).val / 512, by omega⟩
  intro a
  match a with
  | ⟨0, _⟩ =>
    show win0_4.index _ (0 : Fin 2) * 512 ≤ (i 0).val ∧ (i 0).val < win0_4.index _ (0 : Fin 2) * 512 + 512
    rw [e0]; dsimp only; omega
  | ⟨1, _⟩ =>
    show win0_4.index _ (1 : Fin 2) * 512 ≤ (i 1).val ∧ (i 1).val < win0_4.index _ (1 : Fin 2) * 512 + 512
    rw [e1]; dsimp only; omega

/-- So the output array ends at that function. -/
theorem final (c : Dev nD) : (dats m 0 c).arrAt 4 cfg0.N
    = flatOut (V m c main_v1) (V m c main_arg1) (V m c main_arg2) (V m c main_v2) :=
  (dats m 0 c).arrAt_eq_of_cover 4 _ (fun t _ => flushed_eq m c t) cover

/-! ## Around the grid -/

/-- The flattened activations the grid finds: the activations viewed [4096, 4096] (the format change is the identity). -/
theorem V_act (c : Dev nD) : (V m c main_v1 : S4096x4096.Idx → EReal)
    = truncf (F := Ideal) .bf16 (shapeCast S4096x4096 (m ((c : Thread nD τ).loc main_arg0)) shapeCasts_S2x2048x4096_S4096x4096) bitsLt_bf16_f32 := by
  show StableHlo.after hostOps0 (fun b => m (c, b)) (Proc.devRef .tc main_v1) = _
  after_results
  rfl

/-- The bias row the grid finds: the bias viewed [1, 16384]. -/
theorem V_bias (c : Dev nD) : (V m c main_v2 : S1x16384.Idx → EReal)
    = shapeCast S1x16384 (m ((c : Thread nD τ).loc main_arg3)) shapeCasts_S16384_S1x16384 := by
  show StableHlo.after hostOps0 (fun b => m (c, b)) (Proc.devRef .tc main_v2) = _
  after_results
  rfl

/-- The program's result: the output array viewed [2, 2048, 16384]. -/
theorem tail_eq (c : Dev nD) : Pipeline.afterTail₀ cfgs (dats m) 0 (V0 m) [hostOps1] c main_v4
    = shapeCast S2x2048x16384 (flatOut (V m c main_v1) (V m c main_arg1) (V m c main_arg2) (V m c main_v2))
        shapeCasts_S4096x16384_S2x2048x16384 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v3)
      = flatOut (V m c main_v1) (V m c main_arg1) (V m c main_arg2) (V m c main_v2) :=
    (Pipeline.withArrays_arr spec0 launch0.win.arr_inj c _ _ 4).trans (final m c)
  rw [hw]
  rfl

/-- Read at (b, t, o), the program's result is the layer of the arguments: row 2048 b + t of the
    flattened activations is the activations' (b, t) row, the bias row's column o is bias o. -/
theorem result_layer (c : Dev nD) :
    shapeCast S2x2048x16384 (flatOut (V m c main_v1) (V m c main_arg1) (V m c main_arg2) (V m c main_v2))
        shapeCasts_S4096x16384_S2x2048x16384
      = layer (m ((c : Thread nD τ).loc main_arg0)) (m ((c : Thread nD τ).loc main_arg1)) (m ((c : Thread nD τ).loc main_arg2)) (m ((c : Thread nD τ).loc main_arg3)) := by
  funext i
  obtain ⟨b, t, o, rfl⟩ : ∃ (b : Fin 2) (t : Fin 2048) (o : Fin 16384), i = ix3 b t o := ⟨i 0, i 1, i 2, eq_ix3 i⟩
  have hb := b.isLt
  have ht := t.isLt
  rw [layer_apply, shapeCast_apply _ shapeCasts_S4096x16384_S2x2048x16384 (ix3 b t o)
    (ix2 (⟨2048 * b.val + t.val, by omega⟩ : Fin 4096) o) (by
      rw [Shape.rowMajor_val_two, Shape.rowMajor_val_three]
      show (2048 * b.val + t.val) * 16384 + o.val = (b.val * 2048 + t.val) * 16384 + o.val
      omega)]
  have eX : ∀ k : Fin 4096, V m c main_v1 (ix2 (⟨2048 * b.val + t.val, by omega⟩ : Fin 4096) k)
      = (m ((c : Thread nD τ).loc main_arg0)) (ix3 b t k) := fun k => by
    rw [V_act, truncf_apply, shapeCast_apply _ shapeCasts_S2x2048x4096_S4096x4096
      (ix2 (⟨2048 * b.val + t.val, by omega⟩ : Fin 4096) k) (ix3 b t k) (by
        rw [Shape.rowMajor_val_three, Shape.rowMajor_val_two]
        show (b.val * 2048 + t.val) * 4096 + k.val = (2048 * b.val + t.val) * 4096 + k.val
        omega)]
  have eB : V m c main_v2 (ix2 (0 : Fin 1) o) = (m ((c : Thread nD τ).loc main_arg3)) (ix1 o) := by
    rw [V_bias, shapeCast_apply _ shapeCasts_S16384_S1x16384 (ix2 (0 : Fin 1) o) (ix1 o) (by
        rw [Shape.rowMajor_val_one, Shape.rowMajor_val_two]
        show o.val = 0 * 16384 + o.val
        omega)]
  rw [flatOut_apply, eB, V_main_arg1, V_main_arg2]
  unfold layerAt
  refine congrArg (· + _) (Finset.sum_congr rfl fun k _ => ?_)
  rw [eX k]

/-! ## The run -/

/-- Every weakly fair execution of the program terminates with its result at the layer of the
    arguments and the arguments unchanged. -/
theorem run : θ_run defs (onTc (τ := τ) (main (F := Ideal))) ⟨m, fun _ => 0, ρ⟩ fun r => ∀ c : Dev nD,
      r.2.mem ((c : Thread nD τ).loc main_v4)
        = layer (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v4 (Pipeline.mem_restRefs_of main_v4 (by decide) (by decide))).trans
        ((tail_eq m c).trans (result_layer m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.RefSide.lean ====
/-
  The reference's result, read at an index: for every (b, t, o) it is the sum over d of
  x (b, t, d) * (q (o, d) * scale (o, d / 32)), plus bias o — the layer.

  The reference multiplies the integers, viewed [16384, 128, 32], by the scales broadcast along
  the last axis, views the product [16384, 4096] again, contracts the activations' last axis with
  the weight's, and adds the bias broadcast over the leading axes.
-/
import proofs.«179440_j47648367182529_2_alg».proof.Defs
import proofs.«179440_j47648367182529_2_alg».proof.Proof.Gen.ReferenceIdeal.Read
import proofs.«179440_j47648367182529_2_alg».proof.Proof.Spec

noncomputable section

namespace Cert.ReferenceIdeal.Layer

open Cert.ReferenceIdeal Cert.ReferenceIdeal.Gen Cert.ReferenceIdeal.Read Idealize.ShloMosaic
open Idealize.ShloMosaic.ValueIdx Cert.QLinear

/-- The reference's weight at (o, d). -/
theorem weight_apply (x1 : (⟨S16384x4096, .i32⟩ : BufTy).Contents (Elt Ideal))
    (x2 : (⟨S16384x128, .f32⟩ : BufTy).Contents (Elt Ideal)) (o : Fin 16384) (d : Fin 4096) :
    val_main_v5 (F := Ideal) x1 x2 (ix2 o d) = weight x1 x2 o d := by
  have ho := o.isLt
  have hd := d.isLt
  rw [val_main_v5_apply, val_main_v4_apply, val_main_v1_apply, val_main_v0_apply, val_main_v3_apply,
    val_main_v2_apply]
  have e1 : idx_main_v1 (idx_main_v5 (ix2 o d)) = ix2 o d := funext fun a => Fin.ext (by
    match a with
    | ⟨0, _⟩ =>
      show (((o.val * 4096 + d.val) / 4096 * 128 + (o.val * 4096 + d.val) / 32 % 128) * 32 + (o.val * 4096 + d.val) % 32) / 4096 = o.val
      omega
    | ⟨1, _⟩ =>
      show (((o.val * 4096 + d.val) / 4096 * 128 + (o.val * 4096 + d.val) / 32 % 128) * 32 + (o.val * 4096 + d.val) % 32) % 4096 = d.val
      omega)
  have e2 : idx_main_v2 (idx_main_v3 (idx_main_v5 (ix2 o d))) = ix2 o (run d) := funext fun a => Fin.ext (by
    match a with
    | ⟨0, _⟩ => show (o.val * 4096 + d.val) / 4096 = o.val; omega
    | ⟨1, _⟩ => show (o.val * 4096 + d.val) / 32 % 128 = d.val / 32; omega)
  rw [e1, e2]
  rfl

/-- The reference's result is the layer of its arguments. -/
theorem result_eq (x0 : (⟨S2x2048x4096, .f32⟩ : BufTy).Contents (Elt Ideal))
    (x1 : (⟨S16384x4096, .i32⟩ : BufTy).Contents (Elt Ideal))
    (x2 : (⟨S16384x128, .f32⟩ : BufTy).Contents (Elt Ideal))
    (x3 : (⟨S16384, .f32⟩ : BufTy).Contents (Elt Ideal)) :
    val_main_v9 (F := Ideal) x0 x1 x2 x3 = layer x0 x1 x2 x3 := by
  funext i
  obtain ⟨b, t, o, rfl⟩ : ∃ (b : Fin 2) (t : Fin 2048) (o : Fin 16384), i = ix3 b t o := ⟨i 0, i 1, i 2, eq_ix3 i⟩
  rw [layer_apply, val_main_v9_apply, val_main_v6_apply, val_main_v8_apply, val_main_v7_apply]
  have eb : idx_main_v7 (idx_main_v8 (ix3 b t o)) = ix1 o := funext fun a => Fin.ext (by
    match a with
    | ⟨0, _⟩ => rfl)
  have el : ∀ k : Fin 4096, lidx_main_v6 (ix3 b t o) k = ix3 b t k := fun k => funext fun a => Fin.ext (by
    match a with
    | ⟨0, _⟩ => rfl
    | ⟨1, _⟩ => rfl
    | ⟨2, _⟩ => rfl)
  have er : ∀ k : Fin 4096, ridx_main_v6 (ix3 b t o) k = ix2 o k := fun k => funext fun a => Fin.ext (by
    match a with
    | ⟨0, _⟩ => rfl
    | ⟨1, _⟩ => rfl)
  rw [eb]
  show (∑ k : Fin 4096, x0 (lidx_main_v6 (ix3 b t o) k) * val_main_v5 (F := Ideal) x1 x2 (ridx_main_v6 (ix3 b t o) k))
      + x3 (ix1 o) = _
  unfold layerAt
  refine congrArg (· + _) (Finset.sum_congr rfl fun k _ => ?_)
  rw [el k, er k, weight_apply]

end Cert.ReferenceIdeal.Layer

end
-- ==== Proof.lean ====
/-
  The proof of `Cert.Claim`: a block-quantized linear layer computed tile by tile on a 32 × 8 grid,
  against the same layer written as one contraction.

  Both programs compute  y (b, t, o) = (∑ d, x (b, t, d) * (q (o, d) * s (o, d / 32))) + bias o  over
  the extended reals: the kernel dequantizes one 512-row weight tile per column tile into a scratch
  it keeps while the eight row tiles of that column tile go by, and writes each 512 × 512 output tile
  as the activation tile times the transposed weight tile plus the bias row; the reference forms the
  whole weight and contracts once. The factors of every product and the terms of every sum are the
  same on both sides, so no law beyond re-indexing is used and the precondition is never opened.
    Proof/Spec.lean     the weight, the layer, one dequantized chunk at an index
    Proof/Tile.lean     the body's chunk and tile arithmetic at an index
    Proof/Pieces.lean   what one run of the body leaves in the scratch and in the output tile
    Proof/Blocks.lean   the blocks each grid point reads; the scratch and output tile at every point
    Proof/Result.lean   the output array as one function; the program's result is the layer
    Proof/RefSide.lean  the reference's result is the layer
-/
import proofs.«179440_j47648367182529_2_alg».proof.Defs
import proofs.«179440_j47648367182529_2_alg».proof.Proof.Gen.Kernel
import proofs.«179440_j47648367182529_2_alg».proof.Proof.Gen.Kernel.Skeleton
import proofs.«179440_j47648367182529_2_alg».proof.Proof.Gen.Kernel.Launch
import proofs.«179440_j47648367182529_2_alg».proof.Proof.Gen.Kernel.Points
import proofs.«179440_j47648367182529_2_alg».proof.Proof.Gen.Kernel.Frame
import proofs.«179440_j47648367182529_2_alg».proof.Proof.Gen.KernelIdeal
import proofs.«179440_j47648367182529_2_alg».proof.Proof.Gen.KernelIdeal.Skeleton
import proofs.«179440_j47648367182529_2_alg».proof.Proof.Gen.KernelIdeal.Launch
import proofs.«179440_j47648367182529_2_alg».proof.Proof.Gen.KernelIdeal.Points
import proofs.«179440_j47648367182529_2_alg».proof.Proof.Gen.KernelIdeal.Frame
import proofs.«179440_j47648367182529_2_alg».proof.Proof.Gen.ReferenceIdeal
import proofs.«179440_j47648367182529_2_alg».proof.Proof.Gen.ReferenceIdeal.Run
import proofs.«179440_j47648367182529_2_alg».proof.Proof.Gen.ReferenceIdeal.Read
import proofs.«179440_j47648367182529_2_alg».proof.Proof.Gen.Pre_finite_inputs
import proofs.«179440_j47648367182529_2_alg».proof.Proof.Result
import proofs.«179440_j47648367182529_2_alg».proof.Proof.RefSide
import Idealize.ShloMosaic.Adequacy
import Idealize.ShloMosaic.Init

noncomputable section

namespace Cert.Proof

open Idealize.ShloMosaic Idealize.ShloMosaic.TcCoe Idealize.SL.Sem Cert.QLinear

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the layer of arguments that agree. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Layer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
